-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x1 : Shape := ⟨2, ![8192, 1]⟩
abbrev S64x8192 : Shape := ⟨2, ![64, 8192]⟩
abbrev S1024x128 : Shape := ⟨2, ![1024, 128]⟩
abbrev S1024x1 : Shape := ⟨2, ![1024, 1]⟩
abbrev S8x1024 : Shape := ⟨2, ![8, 1024]⟩
abbrev S1024 : Shape := ⟨1, ![1024]⟩
abbrev S128x1024 : Shape := ⟨2, ![128, 1024]⟩
abbrev S1024x1024 : Shape := ⟨2, ![1024, 1024]⟩
abbrev S1x1024 : Shape := ⟨2, ![1, 1024]⟩
abbrev S8192 : Shape := ⟨1, ![8192]⟩
abbrev S8x8x8192 : Shape := ⟨3, ![8, 8, 8192]⟩
abbrev S_ : Shape := ⟨0, ![]⟩
abbrev S8x8192 : Shape := ⟨2, ![8, 8192]⟩

abbrev nBuf : Space → Nat
  | .hbm => 21
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x1, .f32⟩
  | .hbm, ⟨3, _⟩ => ⟨S64x8192, .f32⟩
  | .hbm, ⟨4, _⟩ => ⟨S8192, .f32⟩
  | .hbm, ⟨5, _⟩ => ⟨S8x8x8192, .f32⟩
  | .hbm, ⟨6, _⟩ => ⟨S_, .f32⟩
  | .hbm, ⟨7, _⟩ => ⟨S8x8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S8x1024, .f32⟩
  | .local _ .vmem, ⟨7, _⟩ => ⟨S8x1024, .f32⟩
  | .local _ .vmem, ⟨8, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  iota_S8x1024_d0_w32 : S8x1024.Iotas .tc 32 [0]
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  shapeCasts_S8192x1_S8192 : S8192x1.ShapeCasts S8192
  shapeCasts_S64x8192_S8x8x8192 : S64x8192.ShapeCasts S8x8x8192
  reducesTo_S8x8x8192_S8x8192_d1 : S8x8x8192.ReducesTo [1] S8x8192
  h_S_ : 0 < S_.numel
  reducesTo_S8x8192_S8192_d0 : S8x8192.ReducesTo [0] S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x8192.size a
  hwx0_3 : ∀ i : grid0.Coords, EltTy.bits .f32 = 32 ∨ (Rect.block (s := S64x8192) S8x1024.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Pieces.lean ====
/-
  What the kernel's body leaves in its buffers at one grid point, as values of the blocks it loaded.  The grid
  point (i, j) holds tile i of the first point set and tile j of the second.  In every case the body stores into
  the buffer of running row minima the minimum of what it held and this tile's row minima, and into the block of
  partial column minima the tile's column minima in sublane row 0 over +inf elsewhere; at j = 0 the running
  minima are first reset to +inf, and at the last j they are read back, clamped at 0, rooted, and stored as the
  row block's distances.  Each lemma reads the stores the run found back as the payload they carry.
-/
import proofs.«100550_j18872086299275_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The grid's first tile of a row block (tile 0 of the second set): the running minima are reset to +inf,
    read back, and the tile's row minima folded in. -/
theorem scratch_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : cond0_0 i) (hc1 : ¬cond0_1 i) (x0 x1 : Vec F S1024x128 .f32) :
    sout0_A_0 c i arg2 harg2 arg3 harg3 arg4 harg4 arg5 harg5 arg6 harg6 hc0 hc1 x0 x1 = k0_pay4 x0 x1 (k0_pay2 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x128) hz]

/-- At the first tile the partial column minima are the tile's own. -/
theorem cols_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : cond0_0 i) (hc1 : ¬cond0_1 i) (x0 x1 : Vec F S1024x128 .f32) :
    out0_A_3 c i arg2 harg2 arg3 harg3 arg4 harg4 arg5 harg5 arg6 harg6 hc0 hc1 x0 x1
      = k0_pay1 (k0_pay6 x0 x1) (iota .tc S8x1024 32 [0] iota_S8x1024_d0_w32) k0_pay7 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero (S := S8x1024) hz]
  simp only [View.readAt_eq_ld, harg2.read_unread, harg3.read_unread, View.ld_unit_zero (S := S1024x128) hz]

/-- A middle tile: the running minima the tile before left, with this tile's row minima folded in. -/
theorem scratch_middle (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : ¬cond0_0 i) (hc1 : ¬cond0_1 i) (x0 x1 : Vec F S1024x128 .f32) (xs0 : Vec F S1024x1 .f32) :
    sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero (S := S1024x1) hz]
  simp only [View.readAt_eq_ld, harg2.read_unread, harg3.read_unread, harg6.read_unread, View.ld_unit_zero (S := S1024x128) hz,
    View.ld_unit_zero (S := S1024x1) hz]

theorem cols_middle (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : ¬cond0_0 i) (hc1 : ¬cond0_1 i) (x0 x1 : Vec F S1024x128 .f32) (xs0 : Vec F S1024x1 .f32) :
    out0_B_3 c i arg2 harg2 arg3 harg3 arg4 harg4 arg5 harg5 arg6 harg6 hc0 hc1 x0 x1 xs0
      = k0_pay1 (k0_pay6 x0 x1) (iota .tc S8x1024 32 [0] iota_S8x1024_d0_w32) k0_pay7 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero (S := S8x1024) hz]
  simp only [View.readAt_eq_ld, harg2.read_unread, harg3.read_unread, View.ld_unit_zero (S := S1024x128) hz]

/-- The last tile: the running minima updated as at a middle tile, -/
theorem scratch_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : ¬cond0_0 i) (hc1 : cond0_1 i) (x0 x1 : Vec F S1024x128 .f32) (xs0 : Vec F S1024x1 .f32) :
    sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S1024x1) hz]
  simp only [View.readAt_eq_ld, harg2.read_unread, harg3.read_unread, harg6.read_unread, View.ld_unit_zero (S := S1024x128) hz,
    View.ld_unit_zero (S := S1024x1) hz]

/-- and the row block's distances written out: the updated running minima, read back, clamped and rooted. -/
theorem rows_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : ¬cond0_0 i) (hc1 : cond0_1 i) (x0 x1 : Vec F S1024x128 .f32) (xs0 : Vec F S1024x1 .f32) :
    out0_C_2 c i arg2 harg2 arg3 harg3 arg4 harg4 arg5 harg5 arg6 harg6 hc0 hc1 x0 x1 xs0 = k0_pay5 (k0_pay4 x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg6.read_unread, View.ld_unit_zero (S := S1024x128) hz,
    View.ld_unit_zero (S := S1024x1) hz]

theorem cols_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S8x1024 .f32) (harg5 : arg5.IsWhole) (arg6 : Memref sig .tc .vmem S1024x1 .f32) (harg6 : arg6.IsWhole) (hc0 : ¬cond0_0 i) (hc1 : cond0_1 i) (x0 x1 : Vec F S1024x128 .f32) (xs0 : Vec F S1024x1 .f32) :
    out0_C_3 c i arg2 harg2 arg3 harg3 arg4 harg4 arg5 harg5 arg6 harg6 hc0 hc1 x0 x1 xs0
      = k0_pay1 (k0_pay6 x0 x1) (iota .tc S8x1024 32 [0] iota_S8x1024_d0_w32) k0_pay7 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S8x1024) hz]
  simp only [View.readAt_eq_ld, harg2.read_unread, harg3.read_unread, View.ld_unit_zero (S := S1024x128) hz]

end Cert.KernelIdeal.Pieces
end
-- ==== Proof.Spec.lean ====
/-
  The averaged Hausdorff distance of two point sets, as functions of the two coordinate arrays.

  For points x_n, y_m (8192 of each, 128 coordinates) the squared distance is taken by expansion,
  sqd n m = (|x_n|^2 + |y_m|^2) - 2 <x_n, y_m>, on the extended reals.  Two spellings of the loss:
  `distFirst` clamps at 0 and takes the square root of EVERY squared distance and then the row and column
  minima; `minFirst` takes the minima of the squared distances and clamps and roots only those.  They agree
  because a -> sqrt (max a 0) is monotone, so it commutes with a minimum (`minFirst_eq_distFirst`).
-/
import Idealize.ShloMosaic.PureOps.Ideal
import Idealize.ShloMosaic.PureOps.Ideal.Laws
import Idealize.ShloMosaic.Lib.ValueIdx

noncomputable section

namespace Cert.Hausdorff

open Idealize.ShloMosaic Idealize.ShloMosaic.ValueIdx

/-- A set of 8192 points with 128 coordinates each. -/
abbrev SPts : Shape := ⟨2, ![8192, 128]⟩
/-- The scalar shape of the loss. -/
abbrev SScalar : Shape := ⟨0, ![]⟩

/-- The words of the constants both programs spell: +inf, 2, 1/2, 0. -/
abbrev wInf : EReal := Ideal.ofBits .f32 0x7F800000#32
abbrev wTwo : EReal := Ideal.ofBits .f32 0x40000000#32
abbrev wHalf : EReal := Ideal.ofBits .f32 0x3F000000#32

/-- The word of +inf is the top of the extended reals. -/
theorem wInf_eq_top : wInf = ⊤ := by simp [wInf, Ideal.ofBits, Ideal.ieee]

/-- The squared norm of point `n` of a set. -/
def sqNorm (x : FVec Ideal SPts .f32) (n : Fin 8192) : EReal := ∑ k : Fin 128, x (ix2 n k) * x (ix2 n k)

/-- The inner product of point `n` of the first set with point `m` of the second. -/
def inner (x y : FVec Ideal SPts .f32) (n m : Fin 8192) : EReal := ∑ k : Fin 128, x (ix2 n k) * y (ix2 m k)

/-- The squared distance between point `n` of the first set and point `m` of the second, by expansion. -/
def sqd (x y : FVec Ideal SPts .f32) (n m : Fin 8192) : EReal :=
  (sqNorm x n + sqNorm y m) - wTwo * inner x y n m

/-- Clamp at zero, then the square root: the distance from a squared distance. -/
def clampSqrt (a : EReal) : EReal := Ideal.sqrt (max a 0)

/-- The minimum of a family from +inf. -/
def minOver {n : Nat} (g : Fin n → EReal) : EReal := (Finset.univ : Finset (Fin n)).fold min wInf g

/-- The loss with the minima taken over SQUARED distances, clamped and rooted afterwards. -/
def minFirst (x y : FVec Ideal SPts .f32) : EReal :=
  ((0 + ∑ n : Fin 8192, clampSqrt (minOver fun m => sqd x y n m))
    + (0 + ∑ m : Fin 8192, clampSqrt (minOver fun n => sqd x y n m))) * wHalf

/-- The loss with every squared distance clamped and rooted first, the minima taken over distances. -/
def distFirst (x y : FVec Ideal SPts .f32) : EReal :=
  ((0 + ∑ n : Fin 8192, minOver fun m => clampSqrt (sqd x y n m))
    + (0 + ∑ m : Fin 8192, minOver fun n => clampSqrt (sqd x y n m))) * wHalf

/-- `clampSqrt` is monotone: below zero it is constantly `0`, on the non-negative reals the square root, and
    +inf goes to +inf. -/
theorem clampSqrt_mono : Monotone clampSqrt := by
  intro a b hab
  unfold clampSqrt
  have h : max a 0 ≤ max b 0 := max_le_max hab le_rfl
  have ha : (0 : EReal) ≤ max a 0 := le_max_right _ _
  generalize max a 0 = u at h ha
  generalize max b 0 = v at h
  induction u using EReal.rec with
  | bot => exact absurd ha (by simp)
  | top => rw [top_le_iff.mp h]
  | coe r =>
    induction v using EReal.rec with
    | bot => exact absurd (le_trans ha h) (by simp)
    | top => simp
    | coe s =>
      have hr : 0 ≤ r := by exact_mod_cast ha
      have hrs : r ≤ s := by exact_mod_cast h
      have hs : 0 ≤ s := le_trans hr hrs
      simp only [Ideal.sqrt_coe, not_lt.mpr hr, not_lt.mpr hs, if_false]
      exact_mod_cast Real.sqrt_le_sqrt hrs

/-- `clampSqrt` of +inf is +inf. -/
theorem clampSqrt_top : clampSqrt ⊤ = ⊤ := by simp [clampSqrt]

/-- A monotone map commutes with the minimum of a family taken from +inf when it fixes +inf. -/
theorem clampSqrt_minOver {n : Nat} (g : Fin n → EReal) :
    clampSqrt (minOver g) = minOver fun j => clampSqrt (g j) := by
  unfold minOver
  rw [wInf_eq_top]
  induction (Finset.univ : Finset (Fin n)) using Finset.induction_on with
  | empty => simp [clampSqrt_top]
  | insert a s ha ih =>
    rw [Finset.fold_insert ha, Finset.fold_insert ha, ← ih]
    exact clampSqrt_mono.map_min

/-- The two spellings of the loss agree. -/
theorem minFirst_eq_distFirst (x y : FVec Ideal SPts .f32) : minFirst x y = distFirst x y := by
  unfold minFirst distFirst
  simp only [clampSqrt_minOver]

end Cert.Hausdorff

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibMinReduce.lean ====
/-
  A minimum over one axis of a matrix, read at an index.  At the ideal values a vector.multi_reduction minimumf over
  axis 1 of an [a, b] array is, at row p, the fold of min from the accumulator's value over the row's entries, and over
  axis 0, at column q, the fold over the column's entries; general in the two extents and the element format.  The
  companion fact for such folds: a lower bound of the fold is a lower bound of the initial value and of every member.
-/
import Idealize.ShloMosaic.PureOps.Ideal.Laws
import Idealize.ShloMosaic.PureOps.Reduce
import Idealize.ShloMosaic.Lib.ValueIdx

namespace Idealize.ShloMosaic.ValueIdx

variable {φ : FTy}

/-- A minimum over the lanes of an [a, b] array, at row `p`: the fold of `min` from the accumulator's value over the
    row's `b` entries. -/
theorem multiReduction_minimumf_row_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction (F := Ideal) .minimumf [1] ⟨1, ![a]⟩ v acc h hφ hacc (ix1 p)
      = (Finset.univ : Finset (Fin b)).fold min (Ideal.ofBits φ acc) (fun q => v (ix2 p q)) :=
  ((multiReduction_minimumf_eq_fold v acc h hφ hacc (ix1 p)).trans (h.fold_filter_drop_single _ _ v (ix1 p))).trans
    (congrArg (fun f => (Finset.univ : Finset (Fin b)).fold min (Ideal.ofBits φ acc) f) (funext fun q => congrArg v (funext fun c =>
      Fin.ext (by match c with | ⟨0, _⟩ => rfl | ⟨1, _⟩ => rfl))))

/-- A minimum over the sublanes of an [a, b] array, at column `q`: the fold of `min` from the accumulator's value over
    the column's `a` entries. -/
theorem multiReduction_minimumf_col_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction (F := Ideal) .minimumf [0] ⟨1, ![b]⟩ v acc h hφ hacc (ix1 q)
      = (Finset.univ : Finset (Fin a)).fold min (Ideal.ofBits φ acc) (fun p => v (ix2 p q)) :=
  ((multiReduction_minimumf_eq_fold v acc h hφ hacc (ix1 q)).trans (h.fold_filter_drop_single _ _ v (ix1 q))).trans
    (congrArg (fun f => (Finset.univ : Finset (Fin a)).fold min (Ideal.ofBits φ acc) f) (funext fun p => congrArg v (funext fun c =>
      Fin.ext (by match c with | ⟨0, _⟩ => rfl | ⟨1, _⟩ => rfl))))

/-- Below the fold of `min` over a whole finite index type: below the initial value and below every member. -/
theorem le_fold_min_univ_iff {n : ℕ} (c : EReal) (g : Fin n → EReal) (z : EReal) :
    z ≤ (Finset.univ : Finset (Fin n)).fold min c g ↔ z ≤ c ∧ ∀ j, z ≤ g j := by
  rw [Finset.le_fold_min]
  simp only [Finset.mem_univ, forall_const]

end Idealize.ShloMosaic.ValueIdx
-- ==== Proof.Payloads.lean ====
/-
  The body's arithmetic at one grid point, read entry by entry on the extended reals.  From the two tiles it
  loads (1024 points of each set) the body forms the 1024 x 1024 tile of squared distances
  (|a_p|^2 + |b_q|^2) - 2 <a_p, b_q>, the norms as lane sums, the inner products as one matrix product of the
  first tile with the second transposed.  The running row minima become the minimum of what they were and the
  tile's row minima; the block of partial column minima holds the tile's column minima in sublane row 0 and
  +inf in the seven rows below; the row distances are the running minima clamped at 0 and rooted.
-/
import proofs.«100550_j18872086299275_2_alg».proof.Proof.Gen.KernelIdeal.Skeleton
import proofs.«100550_j18872086299275_2_alg».proof.Proof.Spec
import proofs.«100550_j18872086299275_2_alg».proof.Proof.LibColumns
import proofs.«100550_j18872086299275_2_alg».proof.Proof.LibPlainDot
import proofs.«100550_j18872086299275_2_alg».proof.Proof.LibMinReduce
import Idealize.ShloMosaic.Lib.ValueLayout
import Idealize.ShloMosaic.Lib.Pipeline.Value
import Idealize.ShloMosaic.PureOps.Ideal.Laws

noncomputable section

namespace Cert.Hausdorff

open Idealize.ShloMosaic Idealize.ShloMosaic.ValueIdx
open Cert.KernelIdeal Cert.KernelIdeal.Gen

/-- The squared norm of point `p` of a tile. -/
def tNorm (a : FVec Ideal S1024x128 .f32) (p : Fin 1024) : EReal := ∑ k : Fin 128, a (ix2 p k) * a (ix2 p k)

/-- The inner product of point `p` of one tile with point `q` of another. -/
def tInner (a b : FVec Ideal S1024x128 .f32) (p q : Fin 1024) : EReal := ∑ k : Fin 128, a (ix2 p k) * b (ix2 q k)

/-- The squared distance between point `p` of one tile and point `q` of another, by expansion. -/
def tSq (a b : FVec Ideal S1024x128 .f32) (p q : Fin 1024) : EReal := (tNorm a p + tNorm b q) - wTwo * tInner a b p q

/-- A lane sum of a tile, at a row: the sum of the row's 128 entries. -/
theorem rowSum_apply (v : FVec Ideal S1024x128 .f32) (hφ : FKind.Formats .f32)
    (hacc : (0x00000000#32 : BitVec (FTy.bits .f32)) = FKind.add.neutral .f32 hφ) (p : Fin 1024) :
    multiReduction (F := Ideal) .add [1] S1024 v 0x00000000#32 reduces_S1024x128_S1024 hφ hacc (ix1 p)
      = ∑ k : Fin 128, v (ix2 p k) :=
  (Ideal.multiReduction_add_single v _ reduces_S1024x128_S1024 hφ hacc (ix1 p)).trans
    (Finset.sum_congr rfl fun k _ => congrArg v (funext fun a => Fin.ext (by
      match a with | ⟨0, _⟩ => rfl | ⟨1, _⟩ => rfl)))

/-- A minimum over the lanes of a 1024 x 1024 tile, at a row: the minimum of the row's entries from +inf. -/
theorem rowMin_apply (v : FVec Ideal S1024x1024 .f32) (hφ : FKind.Formats .f32)
    (hacc : (0x7F800000#32 : BitVec (FTy.bits .f32)) = FKind.minimumf.neutral .f32 hφ) (p : Fin 1024) :
    multiReduction (F := Ideal) .minimumf [1] S1024 v 0x7F800000#32 reduces_S1024x1024_S1024 hφ hacc (ix1 p)
      = minOver fun q : Fin 1024 => v (ix2 p q) :=
  multiReduction_minimumf_row_apply v _ reduces_S1024x1024_S1024 hφ hacc p

/-- A minimum over the sublanes of a 1024 x 1024 tile, at a column: the minimum of the column's entries from +inf. -/
theorem colMin_apply (v : FVec Ideal S1024x1024 .f32) (hφ : FKind.Formats .f32)
    (hacc : (0x7F800000#32 : BitVec (FTy.bits .f32)) = FKind.minimumf.neutral .f32 hφ) (q : Fin 1024) :
    multiReduction (F := Ideal) .minimumf [0] S1024 v 0x7F800000#32 reduces_S1024x1024_S1024_2 hφ hacc (ix1 q)
      = minOver fun p : Fin 1024 => v (ix2 p q) :=
  multiReduction_minimumf_col_apply v _ reduces_S1024x1024_S1024_2 hφ hacc q

/-- The tile of squared distances, at an entry. -/
theorem pay3_apply (a b : FVec Ideal S1024x128 .f32) (p q : Fin 1024) :
    k0_pay3 (F := Ideal) a b (ix2 p q) = tSq a b p q := by
  have e1 : broadcastTo S1024x1024 (shapeCast S1024x1 (multiReduction (F := Ideal) .add [1] S1024 (mulf a a) 0x00000000#32
      reduces_S1024x128_S1024 (.inl rfl) rfl) shapeCasts_S1024_S1024x1) broadcasts_S1024x1_S1024x1024 (ix2 p q) = tNorm a p :=
    (broadcastTo_a1_ab_apply _ _ p q).trans ((shapeCast_a_a1_apply _ _ p 0).trans (rowSum_apply _ _ _ p))
  have e2 : broadcastTo S1024x1024 (transpose S1x1024 [1, 0] (shapeCast S1024x1 (multiReduction (F := Ideal) .add [1] S1024 (mulf b b) 0x00000000#32
      reduces_S1024x128_S1024 (.inl rfl) rfl) shapeCasts_S1024_S1024x1) transposes_S1024x1_p1_0_S1x1024) broadcasts_S1x1024_S1024x1024 (ix2 p q) = tNorm b q :=
    (broadcastTo_1b_ab_apply _ _ p q).trans ((transpose_ix2_apply _ _ (0 : Fin 1) q).trans
      ((shapeCast_a_a1_apply _ _ q 0).trans (rowSum_apply _ _ _ q)))
  have e3 : matmul (F := Ideal) dot_S1024x128_S128x1024_S1024x1024_1_0_0_1_n_n none (truncf .bf16 a bitsLt_bf16_f32)
      (transpose S128x1024 [1, 0] (truncf .bf16 b bitsLt_bf16_f32) transposes_S1024x128_p1_0_S128x1024)
      (constant S1024x1024 .f32 0x00000000#32) (ix2 p q) = tInner a b p q :=
    (matmul_plain_zero_apply dot_S1024x128_S128x1024_S1024x1024_1_0_0_1_n_n rfl none _ _ p q).trans
      (Finset.sum_congr rfl fun k _ => congrArg (a (ix2 p k) * ·) (transpose_ix2_apply _ _ k q))
  show (_ + _) - (_ * _) = _
  exact congrArg₂ (· - ·) (congrArg₂ (· + ·) e1 e2) (congrArg (wTwo * ·) e3)

/-- The running row minima after the body: what they were, against the tile's row minima. -/
theorem pay4_apply (a b : FVec Ideal S1024x128 .f32) (v : FVec Ideal S1024x1 .f32) (r : Fin 1024) :
    k0_pay4 (F := Ideal) a b v (ix2 r (0 : Fin 1)) = min (v (ix2 r 0)) (minOver fun q : Fin 1024 => tSq a b r q) := by
  have h : k0_pay4 (F := Ideal) a b v = shapeCast S1024x1 (minimumf v (shapeCast S1024x1
      (multiReduction (F := Ideal) .minimumf [1] S1024 (k0_pay3 a b) 0x7F800000#32 reduces_S1024x1024_S1024 (.inl rfl) rfl)
      shapeCasts_S1024_S1024x1)) shapeCasts_S1024x1_S1024x1 := rfl
  rw [h, shapeCast_self]
  show min (v (ix2 r 0)) _ = _
  exact congrArg (min (v (ix2 r 0))) ((shapeCast_a_a1_apply _ _ r 0).trans ((rowMin_apply _ _ _ r).trans
    (congrArg minOver (funext fun q => pay3_apply a b r q))))

/-- The reset stores +inf everywhere. -/
theorem pay2_apply (r : Fin 1024) : k0_pay2 (F := Ideal) (ix2 r (0 : Fin 1)) = wInf := by
  have h : k0_pay2 (F := Ideal) = shapeCast S1024x1 (broadcast S1024x1 (Scalar.ofBits (F := Ideal) .f32 0x7F800000#32)) shapeCasts_S1024x1_S1024x1 := rfl
  rw [h, shapeCast_self]
  rfl

/-- The row distances: clamp at 0, then the square root. -/
theorem pay5_apply (v : FVec Ideal S1024x1 .f32) (r : Fin 1024) :
    k0_pay5 (F := Ideal) v (ix2 r (0 : Fin 1)) = clampSqrt (v (ix2 r 0)) := by
  show Ideal.sqrt (max (v (ix2 r 0)) (Ideal.ofBits .f32 0x00000000#32)) = _
  rw [Ideal.ofBits_zero_f32]
  rfl

/-- The block of partial column minima: the tile's column minima in sublane row 0, +inf below. -/
theorem pay1_apply (a b : FVec Ideal S1024x128 .f32) (r : Fin 8) (q : Fin 1024) :
    k0_pay1 (F := Ideal) (k0_pay6 a b) (iota .tc S8x1024 32 [0] iota_S8x1024_d0_w32) k0_pay7 (ix2 r q)
      = if r.val = 0 then minOver (fun p : Fin 1024 => tSq a b p q) else wInf := by
  have hv : broadcastTo S8x1024 (shapeCast S1x1024 (k0_pay6 (F := Ideal) a b) shapeCasts_S1x1024_S1x1024) broadcasts_S1x1024_S8x1024 (ix2 r q)
      = minOver (fun p : Fin 1024 => tSq a b p q) := by
    rw [shapeCast_self]
    refine (broadcastTo_1b_ab_apply _ _ r q).trans ?_
    have h6 : k0_pay6 (F := Ideal) a b = shapeCast S1x1024 (multiReduction (F := Ideal) .minimumf [0] S1024 (k0_pay3 a b) 0x7F800000#32
        reduces_S1024x1024_S1024_2 (.inl rfl) rfl) shapeCasts_S1024_S1x1024 := rfl
    rw [h6]
    exact (shapeCast_a_1a_apply _ _ (0 : Fin 1) q).trans ((colMin_apply _ _ _ q).trans
      (congrArg minOver (funext fun p => pay3_apply a b p q)))
  have hc : cmpi .eq (iota .tc S8x1024 32 [0] iota_S8x1024_d0_w32) k0_pay7 (ix2 r q) = if r.val = 0 then 1#1 else 0#1 := by
    show IntOp.cmpi .eq (iota .tc S8x1024 32 [0] iota_S8x1024_d0_w32 (ix2 r q)) (0#32) = _
    rw [iota_single_apply]
    show IntOp.cmpi .eq (BitVec.ofNat 32 r.val) 0#32 = _
    fin_cases r <;> rfl
  show Scalar.select (cmpi .eq (iota .tc S8x1024 32 [0] iota_S8x1024_d0_w32) k0_pay7 (ix2 r q)) _ _ = _
  rw [hc]
  by_cases h0 : r.val = 0
  · rw [if_pos h0, if_pos h0, select_one]; exact hv
  · rw [if_neg h0, if_neg h0, select_zero]; rfl

end Cert.Hausdorff

end
-- ==== Proof.Tiles.lean ====
/-
  The grid's tiling of the two point sets: 8 tiles of 1024 points each.  A minimum over all 8192 points is the
  minimum over the tiles of the minima over a tile's points; the names of the rows and of the per-tile minima.
-/
import proofs.«100550_j18872086299275_2_alg».proof.Proof.Spec

noncomputable section

namespace Cert.Hausdorff

open Idealize.ShloMosaic Idealize.ShloMosaic.ValueIdx

/-- Point `p` of tile `i`, as a point of the whole set: `1024 i + p`. -/
def tileRow (i : Fin 8) (p : Fin 1024) : Fin 8192 := ⟨1024 * i.val + p.val, by have := i.isLt; have := p.isLt; omega⟩

/-- Row `r` of the 8-row group `i` of an array of 64 rows: `8 i + r`. -/
def groupRow (i r : Fin 8) : Fin 64 := ⟨8 * i.val + r.val, by have := i.isLt; have := r.isLt; omega⟩

/-- The minimum of column `m`'s squared distances over the points of tile `i` of the first set. -/
def tileColMin (x y : FVec Ideal SPts .f32) (i : Fin 8) (m : Fin 8192) : EReal :=
  minOver fun p : Fin 1024 => sqd x y (tileRow i p) m

/-- The minimum of row `n`'s squared distances over the points of tile `j` of the second set. -/
def tileRowMin (x y : FVec Ideal SPts .f32) (n : Fin 8192) (j : Fin 8) : EReal :=
  minOver fun q : Fin 1024 => sqd x y n (tileRow j q)

end Cert.Hausdorff

end
-- ==== Proof.GridRun.lean ====
/-
  The grid run, read as values.  Grid point t = 8 i + j holds tile i of the first point set and tile j of the
  second.  Along a row of the grid (i fixed, j = 0 .. 7) the buffer of running row minima holds, after point
  (i, j), the minimum from +inf of the squared distances from each point of tile i to every point of tiles
  0 .. j of the second set; this is carried by its lower bounds.  After j = 7 that is the minimum over the whole
  second set, and the row block written back is its clamp-and-root.  The block of partial column minima written
  back at every point holds the column minima over tile i in its sublane row 0 and +inf below.
-/
import proofs.«100550_j18872086299275_2_alg».proof.Proof.Gen.KernelIdeal.Frame
import proofs.«100550_j18872086299275_2_alg».proof.Proof.Pieces
import proofs.«100550_j18872086299275_2_alg».proof.Proof.Payloads
import proofs.«100550_j18872086299275_2_alg».proof.Proof.Tiles
import Idealize.ShloMosaic.Lib.Pipeline.Value

set_option maxRecDepth 16384

noncomputable section

namespace Cert.Hausdorff

open Idealize.ShloMosaic Idealize.ShloMosaic.TcCoe Idealize.SL.Sem Idealize.ShloMosaic.ValueIdx
open Idealize.ShloMosaic.Pipeline (Dat)
open Cert.KernelIdeal Cert.KernelIdeal.Gen

/-! ## Minima by their lower bounds -/

/-- Below the minimum of a family from +inf: below +inf and below every member. -/
theorem le_minOver_iff {n : Nat} (g : Fin n → EReal) (z : EReal) : z ≤ minOver g ↔ z ≤ wInf ∧ ∀ j, z ≤ g j := by
  unfold minOver
  exact le_fold_min_univ_iff _ _ _

/-- Every point of a set of 8192 is a point of one of its 8 tiles. -/
theorem exists_tileRow (n : Fin 8192) : ∃ (i : Fin 8) (p : Fin 1024), n = tileRow i p :=
  ⟨⟨n.val / 1024, by have := n.isLt; omega⟩, ⟨n.val % 1024, Nat.mod_lt _ (by decide)⟩, Fin.ext (by
    show n.val = 1024 * (n.val / 1024) + n.val % 1024
    omega)⟩

/-- The running row minima of row block `i` cover the tiles `0 .. jmax` of the second set. -/
def RowsUpTo (X Y : FVec Ideal SPts .f32) (i : Fin 8) (jmax : ℕ) (v : FVec Ideal S1024x1 .f32) : Prop :=
  ∀ (r : Fin 1024) (z : EReal), z ≤ v (ix2 r (0 : Fin 1)) ↔
    (z ≤ wInf ∧ ∀ j : Fin 8, j.val ≤ jmax → ∀ q : Fin 1024, z ≤ sqd X Y (tileRow i r) (tileRow j q))

/-- Tiles that are blocks of the two sets have the sets' squared distances. -/
theorem tSq_of_blocks (X Y : FVec Ideal SPts .f32) (a b : FVec Ideal S1024x128 .f32) (i j : Fin 8)
    (ha : ∀ p k, a (ix2 p k) = X (ix2 (tileRow i p) k)) (hb : ∀ q k, b (ix2 q k) = Y (ix2 (tileRow j q) k))
    (p q : Fin 1024) : tSq a b p q = sqd X Y (tileRow i p) (tileRow j q) := by
  unfold tSq sqd tNorm tInner sqNorm inner
  simp only [ha, hb]

/-- After the first tile of a grid row: reset, then tile 0 folded in. -/
theorem rows_first (X Y : FVec Ideal SPts .f32) (a b : FVec Ideal S1024x128 .f32) (i j : Fin 8) (hj : j.val = 0)
    (ha : ∀ p k, a (ix2 p k) = X (ix2 (tileRow i p) k)) (hb : ∀ q k, b (ix2 q k) = Y (ix2 (tileRow j q) k)) :
    RowsUpTo X Y i 0 (k0_pay4 (F := Ideal) a b (k0_pay2 (F := Ideal))) := by
  intro r z
  rw [pay4_apply, le_min_iff, pay2_apply, le_minOver_iff]
  simp only [tSq_of_blocks X Y a b i j ha hb]
  constructor
  · rintro ⟨h1, -, h2⟩
    refine ⟨h1, fun j' hj' q => ?_⟩
    obtain rfl : j' = j := Fin.ext (by omega)
    exact h2 q
  · rintro ⟨h1, h2⟩
    exact ⟨h1, h1, fun q => h2 j (by omega) q⟩

/-- After a later tile of a grid row: one more tile folded in. -/
theorem rows_next (X Y : FVec Ideal SPts .f32) (a b : FVec Ideal S1024x128 .f32) (v : FVec Ideal S1024x1 .f32)
    (i j : Fin 8) (jm jn : ℕ) (hjn : jn = jm + 1) (hj : j.val = jn)
    (ha : ∀ p k, a (ix2 p k) = X (ix2 (tileRow i p) k)) (hb : ∀ q k, b (ix2 q k) = Y (ix2 (tileRow j q) k))
    (hv : RowsUpTo X Y i jm v) : RowsUpTo X Y i jn (k0_pay4 (F := Ideal) a b v) := by
  intro r z
  rw [pay4_apply, le_min_iff, hv r z, le_minOver_iff]
  simp only [tSq_of_blocks X Y a b i j ha hb]
  constructor
  · rintro ⟨⟨h1, h2⟩, -, h3⟩
    refine ⟨h1, fun j' hj' q => ?_⟩
    by_cases hlt : j'.val ≤ jm
    · exact h2 j' hlt q
    · obtain rfl : j' = j := Fin.ext (by omega)
      exact h3 q
  · rintro ⟨h1, h2⟩
    exact ⟨⟨h1, fun j' hj' q => h2 j' (by omega) q⟩, h1, fun q => h2 j (by omega) q⟩

/-- When all 8 tiles are covered the running minima are the minima over the whole second set. -/
theorem rows_full (X Y : FVec Ideal SPts .f32) (v : FVec Ideal S1024x1 .f32) (i : Fin 8) (hv : RowsUpTo X Y i 7 v)
    (r : Fin 1024) : v (ix2 r (0 : Fin 1)) = minOver fun mm : Fin 8192 => sqd X Y (tileRow i r) mm := by
  refine eq_of_forall_le_iff fun z => ?_
  rw [hv r z, le_minOver_iff]
  refine and_congr Iff.rfl ⟨fun h mm => ?_, fun h j _ q => h _⟩
  obtain ⟨j, q, rfl⟩ := exists_tileRow mm
  exact h j (by have := j.isLt; omega) q

/-! ## The grid's points and the blocks they hold -/

variable (m : (ℓ : Loc nD τ sig) → Buf (Elt Ideal) ℓ) (c : Dev nD)

/-- The first point set as the grid finds it. -/
abbrev setX : FVec Ideal SPts .f32 := V m c main_arg0
/-- The second point set as the grid finds it. -/
abbrev setY : FVec Ideal SPts .f32 := V m c main_arg1

/-- The printed index maps over the 64 grid points: point t holds block t / 8 of the first set and of the row
    distances, block t % 8 of the second set, and block (t / 8, t % 8) of the partial column minima. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = t.val % 8 :=
  (by decide +kernel : ∀ t : Fin grid0.N, _)

theorem N64 : cfg0.N = 64 := N_0

/-- The grid row of point `n`. -/
def gridI (n : ℕ) (hn : n < cfg0.N) : Fin 8 := ⟨n / 8, by have := N64; omega⟩
/-- The grid column of point `n`. -/
def gridJ (n : ℕ) : Fin 8 := ⟨n % 8, Nat.mod_lt _ (by decide)⟩

/-- The first input's block at a point is tile `t / 8` of the first set. -/
theorem iblk0_apply (t : Fin cfg0.N) (p : Fin 1024) (k : Fin 128) :
    (iblk m c 0 t : FVec Ideal S1024x128 .f32) (ix2 p k) = setX m c (ix2 (tileRow (gridI t.val t.isLt) p) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = 1024 * (t.val / 8) + p.val; rw [e0]; omega
  | ⟨1, _⟩ => show win0_0.index t (1 : Fin 2) * 128 + 1 * k.val = k.val; rw [e1]; omega

/-- The second input's block at a point is tile `t % 8` of the second set. -/
theorem iblk1_apply (t : Fin cfg0.N) (q : Fin 1024) (k : Fin 128) :
    (iblk m c 1 t : FVec Ideal S1024x128 .f32) (ix2 q k) = setY m c (ix2 (tileRow (gridJ t.val) q) k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * q.val = 1024 * (t.val % 8) + q.val; rw [e0]; omega
  | ⟨1, _⟩ => show win0_1.index t (1 : Fin 2) * 128 + 1 * k.val = k.val; rw [e1]; omega

/-! ## What the buffers hold after each point -/

/-- At the first point of a grid row the running minima are reset and tile 0 folded in. -/
theorem scratch_A (t : Fin cfg0.N) (h0 : t.val % 8 = 0) :
    (outsAt0 m c t.val t.isLt).2.2 = k0_pay4 (F := Ideal) (iblk m c 0 t) (iblk m c 1 t) (k0_pay2 (F := Ideal)) := by
  have h1 : ¬ t.val % 8 = 7 := by omega
  rw [outsAt0_A m c t h0 h1]
  dsimp only
  exact Cert.KernelIdeal.Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later point of a grid row this point's tile is folded into what the point before left. -/
theorem scratch_BC (t : Fin cfg0.N) (h0 : ¬ t.val % 8 = 0) :
    (outsAt0 m c t.val t.isLt).2.2 = k0_pay4 (F := Ideal) (iblk m c 0 t) (iblk m c 1 t) ((outsAt0 m c (t.val - 1) (Nat.lt_of_le_of_lt (Nat.sub_le _ _) t.isLt)).2.2) := by
  by_cases h1 : t.val % 8 = 7
  · rw [outsAt0_C m c t h0 h1]
    dsimp only
    exact Cert.KernelIdeal.Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2.2)
  · rw [outsAt0_B m c t h0 h1]
    dsimp only
    exact Cert.KernelIdeal.Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) ((outsAt0 m c (t.val - 1) (Nat.lt_of_le_of_lt (Nat.sub_le _ _) t.isLt)).2.2)

/-- At the last point of a grid row the row block written is the clamp-and-root of the running minima it leaves. -/
theorem rows_C (t : Fin cfg0.N) (h1 : t.val % 8 = 7) :
    (outsAt0 m c t.val t.isLt).1 = k0_pay5 (F := Ideal) ((outsAt0 m c t.val t.isLt).2.2) := by
  have h0 : ¬ t.val % 8 = 0 := by omega
  rw [outsAt0_C m c t h0 h1]
  dsimp only
  exact (Cert.KernelIdeal.Pieces.rows_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2.2)).trans
    (congrArg (k0_pay5 (F := Ideal)) (Cert.KernelIdeal.Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2.2)).symm)

/-- At every point the block of partial column minima is this point's own. -/
theorem cols_at (t : Fin cfg0.N) :
    (outsAt0 m c t.val t.isLt).2.1
      = k0_pay1 (F := Ideal) (k0_pay6 (iblk m c 0 t) (iblk m c 1 t)) (iota .tc S8x1024 32 [0] iota_S8x1024_d0_w32) k0_pay7 := by
  by_cases h0 : t.val % 8 = 0
  · have h1 : ¬ t.val % 8 = 7 := by omega
    rw [outsAt0_A m c t h0 h1]
    dsimp only
    exact Cert.KernelIdeal.Pieces.cols_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]
      dsimp only
      exact Cert.KernelIdeal.Pieces.cols_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2.2)
    · rw [outsAt0_B m c t h0 h1]
      dsimp only
      exact Cert.KernelIdeal.Pieces.cols_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) ((outsAt0 m c (t.val - 1) (Nat.lt_of_le_of_lt (Nat.sub_le _ _) t.isLt)).2.2)

/-- The running row minima after point `n` cover the tiles `0 .. n % 8` of the second set: by induction along the grid. -/
theorem scratch_inv : ∀ (n : ℕ) (hn : n < cfg0.N),
    RowsUpTo (setX m c) (setY m c) (gridI n hn) (n % 8) ((outsAt0 m c n hn).2.2) := by
  intro n
  induction n with
  | zero =>
    intro hn
    rw [scratch_A m c ⟨0, hn⟩ rfl]
    exact rows_first _ _ _ _ (gridI 0 hn) (gridJ 0) rfl (iblk0_apply m c ⟨0, hn⟩) (iblk1_apply m c ⟨0, hn⟩)
  | succ n' ih =>
    intro hn
    have hN := N64
    by_cases h0 : (n' + 1) % 8 = 0
    · rw [scratch_A m c ⟨n' + 1, hn⟩ h0, h0]
      exact rows_first _ _ _ _ (gridI (n' + 1) hn) (gridJ (n' + 1)) h0 (iblk0_apply m c ⟨n' + 1, hn⟩) (iblk1_apply m c ⟨n' + 1, hn⟩)
    · rw [scratch_BC m c ⟨n' + 1, hn⟩ h0]
      have hi : gridI (n' + 1) hn = gridI n' (Nat.lt_of_succ_lt hn) := Fin.ext (by show (n' + 1) / 8 = n' / 8; omega)
      have ih' := ih (Nat.lt_of_succ_lt hn)
      rw [← hi] at ih'
      exact rows_next _ _ _ _ _ (gridI (n' + 1) hn) (gridJ (n' + 1)) (n' % 8) ((n' + 1) % 8) (by omega) rfl
        (iblk0_apply m c ⟨n' + 1, hn⟩) (iblk1_apply m c ⟨n' + 1, hn⟩) ih'

/-- The row block written back after the last tile of a grid row: the distances from the row block's points to
    the second set. -/
theorem rows_value (t : Fin cfg0.N) (h1 : t.val % 8 = 7) (r : Fin 1024) :
    ((outsAt0 m c t.val t.isLt).1 : FVec Ideal S1024x1 .f32) (ix2 r (0 : Fin 1))
      = clampSqrt (minOver fun mm : Fin 8192 => sqd (setX m c) (setY m c) (tileRow (gridI t.val t.isLt) r) mm) := by
  have hv := scratch_inv m c t.val t.isLt
  rw [h1] at hv
  rw [rows_C m c t h1, pay5_apply, rows_full _ _ _ _ hv r]

/-- The block of partial column minima written back at a point. -/
theorem cols_value (t : Fin cfg0.N) (r : Fin 8) (q : Fin 1024) :
    ((outsAt0 m c t.val t.isLt).2.1 : FVec Ideal S8x1024 .f32) (ix2 r q)
      = if r.val = 0 then minOver (fun p : Fin 1024 => sqd (setX m c) (setY m c) (tileRow (gridI t.val t.isLt) p) (tileRow (gridJ t.val) q))
        else wInf := by
  rw [cols_at m c t, pay1_apply]
  simp only [tSq_of_blocks (setX m c) (setY m c) _ _ (gridI t.val t.isLt) (gridJ t.val) (iblk0_apply m c t) (iblk1_apply m c t)]

/-! ## The two arrays the grid leaves -/

/-- The point a row of the 8192 x 1 column of row distances belongs to. -/
def rowPt (e : S8192x1.Idx) : Fin 8192 := ⟨(e 0).val, idx2_lt0 e⟩
/-- The tile a row of the 64 x 8192 array of partial column minima belongs to. -/
def grpOf (e : S64x8192.Idx) : Fin 8 := ⟨(e 0).val / 8, by have := idx2_lt0 e; omega⟩
/-- The point a column of that array belongs to. -/
def colPt (e : S64x8192.Idx) : Fin 8192 := ⟨(e 1).val, idx2_lt1 e⟩

/-- The column of row distances: each point of the first set to the second set. -/
def rowsArr (X Y : FVec Ideal SPts .f32) : FVec Ideal S8192x1 .f32 :=
  fun e => clampSqrt (minOver fun mm : Fin 8192 => sqd X Y (rowPt e) mm)

/-- The partial column minima: row `8 i` of the 64 holds the column minima over tile `i`, the other rows +inf. -/
def colsArr (X Y : FVec Ideal SPts .f32) : FVec Ideal S64x8192 .f32 :=
  fun e => if (e 0).val % 8 = 0 then tileColMin X Y (grpOf e) (colPt e) else wInf

theorem rowsArr_at (X Y : FVec Ideal SPts .f32) (e : S8192x1.Idx) (i : Fin 8) (r : Fin 1024)
    (h0 : (e 0).val = i.val * 1024 + r.val) :
    rowsArr X Y e = clampSqrt (minOver fun mm : Fin 8192 => sqd X Y (tileRow i r) mm) := by
  have he : rowPt e = tileRow i r := Fin.ext (by show (e 0).val = 1024 * i.val + r.val; omega)
  unfold rowsArr
  rw [he]

theorem colsArr_at (X Y : FVec Ideal SPts .f32) (e : S64x8192.Idx) (i j r : Fin 8) (q : Fin 1024)
    (h0 : (e 0).val = i.val * 8 + r.val) (h1 : (e 1).val = j.val * 1024 + q.val) :
    colsArr X Y e = if r.val = 0 then minOver (fun p : Fin 1024 => sqd X Y (tileRow i p) (tileRow j q)) else wInf := by
  have hg : grpOf e = i := Fin.ext (by show (e 0).val / 8 = i.val; have := r.isLt; omega)
  have hc : colPt e = tileRow j q := Fin.ext (by show (e 1).val = 1024 * j.val + q.val; omega)
  have hr : (e 0).val % 8 = 0 ↔ r.val = 0 := by have := r.isLt; omega
  unfold colsArr
  by_cases hz : r.val = 0
  · rw [if_pos hz, if_pos (hr.mpr hz), hg, hc]; rfl
  · rw [if_neg hz, if_neg (mt hr.mp hz)]

/-- What the last point of a grid row writes back is its block of the column of row distances. -/
theorem flushed_rows (t : Fin cfg0.N) (hf : (cfg0.win 2).flush t = true) :
    (dats m 0 c).flushed 2 t = ((cfg0.win 2).blk t).view.read (Elt Ideal) (rowsArr (setX m c) (setY m c)) := by
  have h1 : t.val % 8 = 7 := (flush0_2 t).mp hf
  obtain ⟨-, -, -, -, e0, e1, -⟩ := idx_facts t
  show (cfg0.win 2).cut (grid0.coords t) ((dats m 0 c).after 2 t) = _
  rw [after0_2]
  funext y
  rw [View.read_apply]
  show ((outsAt0 m c t.val t.isLt).1 : FVec Ideal S1024x1 .f32) y = rowsArr (setX m c) (setY m c) (((cfg0.win 2).blk t).view.emb y)
  obtain ⟨r, u, rfl⟩ : ∃ (r : Fin 1024) (u : Fin 1), y = ix2 r u := ⟨y 0, y 1, eq_ix2 (n0 := 1024) (n1 := 1) y⟩
  obtain rfl : u = 0 := Subsingleton.elim _ _
  rw [rows_value m c t h1 r]
  refine (rowsArr_at _ _ _ (gridI t.val t.isLt) r ?_).symm
  show win0_2.index t (0 : Fin 2) * 1024 + 1 * r.val = t.val / 8 * 1024 + r.val
  rw [e0]; omega

/-- What every point writes back is its block of the array of partial column minima. -/
theorem flushed_cols (t : Fin cfg0.N) (hf : (cfg0.win 3).flush t = true) :
    (dats m 0 c).flushed 3 t = ((cfg0.win 3).blk t).view.read (Elt Ideal) (colsArr (setX m c) (setY m c)) := by
  obtain ⟨-, -, -, -, -, -, e0, e1⟩ := idx_facts t
  show (cfg0.win 3).cut (grid0.coords t) ((dats m 0 c).after 3 t) = _
  rw [after0_3]
  funext y
  rw [View.read_apply]
  show ((outsAt0 m c t.val t.isLt).2.1 : FVec Ideal S8x1024 .f32) y = colsArr (setX m c) (setY m c) (((cfg0.win 3).blk t).view.emb y)
  obtain ⟨r, q, rfl⟩ : ∃ (r : Fin 8) (q : Fin 1024), y = ix2 r q := ⟨y 0, y 1, eq_ix2 (n0 := 8) (n1 := 1024) y⟩
  rw [cols_value m c t r q]
  refine (colsArr_at _ _ _ (gridI t.val t.isLt) (gridJ t.val) r q ?_ ?_).symm
  · show win0_3.index t (0 : Fin 2) * 8 + 1 * r.val = t.val / 8 * 8 + r.val
    rw [e0]; omega
  · show win0_3.index t (1 : Fin 2) * 1024 + 1 * q.val = t.val % 8 * 1024 + q.val
    rw [e1]; omega

/-- An index of the column is in point `t`'s block iff each coordinate is in the block's range. -/
theorem mem_blk_rows (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl

theorem mem_blk_cols (t : Fin cfg0.N) (i : S64x8192.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v0_1).slice (win0_3.rect t)).set ↔ _
  rw [View.set_slice_whole, Rect.mem_set_unit]
  exact Iff.rfl

/-- Every row of the column is written back by the last point of its grid row. -/
theorem cover_rows (i : S8192x1.Idx) : ∃ t : Fin cfg0.N, (cfg0.win 2).flush t = true ∧ i ∈ ((cfg0.win 2).blk t).view.set := by
  have hN := N64
  have hi0 : (i 0).val < 8192 := idx2_lt0 i
  have hi1 : (i 1).val < 1 := idx2_lt1 i
  obtain ⟨t, ht⟩ : ∃ t : Fin cfg0.N, t.val = 8 * ((i 0).val / 1024) + 7 := ⟨⟨8 * ((i 0).val / 1024) + 7, by omega⟩, rfl⟩
  obtain ⟨-, -, -, -, e0, e1, -⟩ := idx_facts t
  refine ⟨t, (flush0_2 t).mpr (by omega), ?_⟩
  rw [mem_blk_rows]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

/-- Every entry of the array of partial column minima is written back by exactly the point of its tile pair. -/
theorem cover_cols (i : S64x8192.Idx) : ∃ t : Fin cfg0.N, (cfg0.win 3).flush t = true ∧ i ∈ ((cfg0.win 3).blk t).view.set := by
  have hN := N64
  have hi0 : (i 0).val < 64 := idx2_lt0 i
  have hi1 : (i 1).val < 8192 := idx2_lt1 i
  obtain ⟨t, ht⟩ : ∃ t : Fin cfg0.N, t.val = 8 * ((i 0).val / 8) + (i 1).val / 1024 := ⟨⟨8 * ((i 0).val / 8) + (i 1).val / 1024, by omega⟩, rfl⟩
  obtain ⟨-, -, -, -, -, -, e0, e1⟩ := idx_facts t
  refine ⟨t, flush0_3 t, ?_⟩
  rw [mem_blk_cols]
  intro a
  match a with
  | ⟨0, _⟩ =>
    show win0_3.index t (0 : Fin 2) * 8 ≤ (i 0).val ∧ (i 0).val < win0_3.index t (0 : Fin 2) * 8 + 8
    rw [e0]; omega
  | ⟨1, _⟩ =>
    show win0_3.index t (1 : Fin 2) * 1024 ≤ (i 1).val ∧ (i 1).val < win0_3.index t (1 : Fin 2) * 1024 + 1024
    rw [e1]; omega

/-- After the grid the column of row distances holds, at every point of the first set, its distance to the second. -/
theorem final_rows : (dats m 0 c).arrAt 2 cfg0.N = rowsArr (setX m c) (setY m c) :=
  (dats m 0 c).arrAt_eq_of_cover 2 (rowsArr (setX m c) (setY m c)) (flushed_rows m c) cover_rows

/-- After the grid the 64 x 8192 array holds the per-tile column minima in rows 0, 8, .., 56 and +inf elsewhere. -/
theorem final_cols : (dats m 0 c).arrAt 3 cfg0.N = colsArr (setX m c) (setY m c) :=
  (dats m 0 c).arrAt_eq_of_cover 3 (colsArr (setX m c) (setY m c)) (flushed_cols m c) cover_cols

/-- The column of row distances, entry by entry. -/
theorem rowsArr_apply (X Y : FVec Ideal SPts .f32) (n : Fin 8192) :
    rowsArr X Y (ix2 n (0 : Fin 1)) = clampSqrt (minOver fun mm : Fin 8192 => sqd X Y n mm) := rfl

/-- The array of partial column minima, entry by entry. -/
theorem colsArr_apply (X Y : FVec Ideal SPts .f32) (i r : Fin 8) (mm : Fin 8192) :
    colsArr X Y (ix2 (groupRow i r) mm) = if r.val = 0 then tileColMin X Y i mm else wInf := by
  have hg : grpOf (ix2 (groupRow i r) mm) = i := Fin.ext (by show (8 * i.val + r.val) / 8 = i.val; have := r.isLt; omega)
  have hr : (8 * i.val + r.val) % 8 = 0 ↔ r.val = 0 := by have := r.isLt; omega
  unfold colsArr
  show (if (8 * i.val + r.val) % 8 = 0 then tileColMin X Y (grpOf (ix2 (groupRow i r) mm)) (colPt (ix2 (groupRow i r) mm)) else wInf) = _
  rw [hg]
  by_cases hz : r.val = 0
  · rw [if_pos hz, if_pos (hr.mpr hz)]; rfl
  · rw [if_neg hz, if_neg (mt hr.mp hz)]

end Cert.Hausdorff

end
-- ==== Proof.Tail.lean ====
/-
  What the kernel's program does on the host after the grid has run: the column of row distances is flattened and
  summed; the 64 x 8192 array of partial column minima is regrouped as 8 tiles of 8 sublane rows, the minimum taken
  over the sublane rows and then over the tiles, clamped at 0 and rooted, and summed; the two sums are added and halved.
  `hostTail` is that composition as one function of the two arrays the grid leaves.
-/
import proofs.«100550_j18872086299275_2_alg».proof.Proof.Gen.KernelIdeal
import proofs.«100550_j18872086299275_2_alg».proof.Proof.Spec

noncomputable section

namespace Cert.Hausdorff

open Idealize.ShloMosaic Idealize.ShloMosaic.ValueIdx
open Cert.KernelIdeal Cert.KernelIdeal.Gen

/-- The host operations after the grid, composed: from the column of row distances `R` and the array `C` of partial
    column minima to the loss. -/
def hostTail (R : FVec Ideal S8192x1 .f32) (C : FVec Ideal S64x8192 .f32) : FVec Ideal S_ .f32 :=
  mulf
    (addf
      (Host.reduceAdd (shapeCast S8192 R shapeCasts_S8192x1_S8192) (constant (F := Ideal) S_ .f32 0x00000000#32) reducesTo_S8192_S_d0 h_S_)
      (Host.reduceAdd
        (Host.sqrt (maximumf
          (Host.reduce FloatOps.minimumf
            (Host.reduce FloatOps.minimumf (shapeCast S8x8x8192 C shapeCasts_S64x8192_S8x8x8192)
              (constant (F := Ideal) S_ .f32 0x7F800000#32) reducesTo_S8x8x8192_S8x8192_d1 h_S_)
            (constant (F := Ideal) S_ .f32 0x7F800000#32) reducesTo_S8x8192_S8192_d0 h_S_)
          (broadcastInDim S8192 ![] bcast_S_S8192 (constant (F := Ideal) S_ .f32 0x00000000#32))))
        (constant (F := Ideal) S_ .f32 0x00000000#32) reducesTo_S8192_S_d0 h_S_))
    (constant (F := Ideal) S_ .f32 0x3F000000#32)

end Cert.Hausdorff

end
-- ==== Proof.TailRead.lean ====
/-
  The composition `hostTail` read as a closed form on the extended reals, and its value under the two hypotheses on
  the arrays it takes.  A reshape read at an index is the operand at the same row-major position; a one-axis minimum
  is a fold of `min` over that axis's coordinates; a total sum is a sum over `Fin 8192`.  A minimum is carried by its
  lower bounds: `a ≤ fold min c g ↔ a ≤ c ∧ ∀ j, a ≤ g j`.
-/
import proofs.«100550_j18872086299275_2_alg».proof.Proof.Tail
import proofs.«100550_j18872086299275_2_alg».proof.Proof.Tiles
import Idealize.ShloMosaic.Lib.Pipeline.Value
import Idealize.ShloMosaic.Lib.ValueIdx
import Idealize.ShloMosaic.PureOps.Ideal.Laws
import Idealize.ShloMosaic.PureOps.Reduce

noncomputable section

namespace Cert.Hausdorff

open Idealize.ShloMosaic Idealize.ShloMosaic.ValueIdx
open Cert.KernelIdeal Cert.KernelIdeal.Gen

/-- The column [8192, 1] flattened to [8192], read at `n`: row `n` of the column. -/
theorem castR_apply (R : FVec Ideal S8192x1 .f32) (n : Fin 8192) :
    shapeCast S8192 R shapeCasts_S8192x1_S8192 (ix1 n) = R (ix2 n 0) := by
  refine shapeCast_apply _ _ _ _ ?_
  rw [Shape.rowMajor_val_two, Shape.rowMajor_val_one]
  show n.val * 1 + 0 = n.val
  omega

/-- The array [64, 8192] regrouped as [8, 8, 8192], read at `(i, r, m)`: row `8 i + r`, column `m`. -/
theorem castC_apply (C : FVec Ideal S64x8192 .f32) (i r : Fin 8) (m : Fin 8192) :
    shapeCast S8x8x8192 C shapeCasts_S64x8192_S8x8x8192 (ix3 i r m) = C (ix2 (groupRow i r) m) := by
  refine shapeCast_apply _ _ _ _ ?_
  rw [Shape.rowMajor_val_two, Shape.rowMajor_val_three]
  show (8 * i.val + r.val) * 8192 + m.val = (i.val * 8 + r.val) * 8192 + m.val
  omega

/-- The minimum over the middle axis of an [8, 8, 8192] array from +inf, read at `(i, m)`. -/
theorem minR_apply (X : FVec Ideal S8x8x8192 .f32) (i : Fin 8) (m : Fin 8192) :
    Host.reduce FloatOps.minimumf X (constant (F := Ideal) S_ .f32 0x7F800000#32) reducesTo_S8x8x8192_S8x8192_d1 h_S_ (ix2 i m)
      = (Finset.univ : Finset (Fin 8)).fold min wInf fun r => X (ix3 i r m) := by
  have h : S8x8x8192.Reduces [1] S8x8192 := by decide
  refine (Host.reduce_eq_fold_single _ _ _ _ h _ _).trans ?_
  have hf : (X ∘ h.lift (ix2 i m)) = fun r : Fin 8 => X (ix3 i r m) := by
    funext r
    refine congrArg X (funext fun a => ?_)
    match a with
    | ⟨0, _⟩ => rfl
    | ⟨1, _⟩ => rfl
    | ⟨2, _⟩ => rfl
  rw [hf]
  rfl

/-- The minimum over the leading axis of an [8, 8192] array from +inf, read at `m`. -/
theorem minI_apply (Y : FVec Ideal S8x8192 .f32) (m : Fin 8192) :
    Host.reduce FloatOps.minimumf Y (constant (F := Ideal) S_ .f32 0x7F800000#32) reducesTo_S8x8192_S8192_d0 h_S_ (ix1 m)
      = (Finset.univ : Finset (Fin 8)).fold min wInf fun i => Y (ix2 i m) := by
  have h : S8x8192.Reduces [0] S8192 := by decide
  refine (Host.reduce_eq_fold_single _ _ _ _ h _ _).trans ?_
  have hf : (Y ∘ h.lift (ix1 m)) = fun i : Fin 8 => Y (ix2 i m) := by
    funext i
    refine congrArg Y (funext fun a => ?_)
    match a with
    | ⟨0, _⟩ => rfl
    | ⟨1, _⟩ => rfl
  rw [hf]
  rfl

/-- The index set of a vector of length 8192 is `Fin 8192`. -/
def idxEquivVec : Fin 8192 ≃ S8192.Idx where
  toFun := ix1
  invFun := fun j => j 0
  left_inv := fun _ => rfl
  right_inv := fun j => (eq_ix1 j).symm

/-- The sum of a vector of length 8192 from 0 to a scalar: `0` plus the sum of its entries. -/
theorem sumAll_apply (V : FVec Ideal S8192 .f32) (j : S_.Idx) :
    Host.reduceAdd V (constant (F := Ideal) S_ .f32 0x00000000#32) reducesTo_S8192_S_d0 h_S_ j
      = 0 + ∑ n : Fin 8192, V (ix1 n) := by
  refine (Ideal.hostReduceAdd_total reducesTo_S8192_S_d0 (fun b => b.elim0) V _ j).trans ?_
  rw [← Equiv.sum_comp idxEquivVec V]
  show Ideal.ofBits .f32 0x00000000#32 + _ = _
  rw [Ideal.ofBits_zero_f32]
  rfl

/-- The clamp at 0 and the square root of a vector of length 8192, read at `m`. -/
theorem sqrtMax_apply (V : FVec Ideal S8192 .f32) (m : Fin 8192) :
    Host.sqrt (maximumf V (broadcastInDim S8192 ![] bcast_S_S8192 (constant (F := Ideal) S_ .f32 0x00000000#32))) (ix1 m)
      = clampSqrt (V (ix1 m)) := by
  unfold clampSqrt
  show Ideal.sqrt (max (V (ix1 m)) (Ideal.ofBits .f32 0x00000000#32)) = _
  rw [Ideal.ofBits_zero_f32]

/-- The composition read at the scalar's index: the sum of the column `R`, plus the sum over the columns `m` of the
    clamped and rooted minimum over the groups `i` and rows `r` of `C` at row `8 i + r`, all halved. -/
theorem hostTail_apply (R : FVec Ideal S8192x1 .f32) (C : FVec Ideal S64x8192 .f32) (j : S_.Idx) :
    hostTail R C j
      = ((0 + ∑ n : Fin 8192, R (ix2 n 0))
          + (0 + ∑ m : Fin 8192, clampSqrt ((Finset.univ : Finset (Fin 8)).fold min wInf fun i =>
              (Finset.univ : Finset (Fin 8)).fold min wInf fun r => C (ix2 (groupRow i r) m)))) * wHalf := by
  unfold hostTail
  refine congrArg (· * wHalf) ?_
  refine congrArg₂ (· + ·) ?_ ?_
  · refine (sumAll_apply _ j).trans ?_
    simp only [castR_apply]
  · refine (sumAll_apply _ j).trans ?_
    refine congrArg (0 + ·) (Finset.sum_congr rfl fun m _ => ?_)
    refine (sqrtMax_apply _ m).trans ?_
    rw [minI_apply]
    simp only [minR_apply, castC_apply]

/-- The minimum of a column over the 8 groups of 8 rows, when row 0 of group `i` holds the minimum of the column over
    the points of tile `i` and the other rows hold +inf, is the minimum of the column over all 8192 points: every point
    `n` is point `n % 1024` of tile `n / 1024`. -/
theorem colMin_eq (x y : FVec Ideal SPts .f32) (C : FVec Ideal S64x8192 .f32)
    (hC : ∀ (i r : Fin 8) (m : Fin 8192), C (ix2 (groupRow i r) m) = if r.val = 0 then tileColMin x y i m else wInf)
    (m : Fin 8192) :
    ((Finset.univ : Finset (Fin 8)).fold min wInf fun i =>
        (Finset.univ : Finset (Fin 8)).fold min wInf fun r => C (ix2 (groupRow i r) m))
      = minOver fun n => sqd x y n m := by
  refine eq_of_forall_le_iff fun a => ?_
  have ha : a ≤ wInf := by rw [wInf_eq_top]; exact le_top
  unfold minOver
  simp only [Finset.le_fold_min, Finset.mem_univ, true_imp_iff, hC, ha, true_and]
  constructor
  · intro h n
    have hi : n.val / 1024 < 8 := by have := n.isLt; omega
    have hp : n.val % 1024 < 1024 := Nat.mod_lt _ (by decide)
    have h0 := h ⟨n.val / 1024, hi⟩ 0
    rw [if_pos (show ((0 : Fin 8) : Nat) = 0 from rfl)] at h0
    unfold tileColMin minOver at h0
    rw [Finset.le_fold_min] at h0
    have h1 := h0.2 ⟨n.val % 1024, hp⟩ (Finset.mem_univ _)
    have hn : tileRow ⟨n.val / 1024, hi⟩ ⟨n.val % 1024, hp⟩ = n := by
      apply Fin.ext
      show 1024 * (n.val / 1024) + n.val % 1024 = n.val
      omega
    rw [hn] at h1
    exact h1
  · intro h i r
    split
    · unfold tileColMin minOver
      rw [Finset.le_fold_min]
      exact ⟨ha, fun p _ => h _⟩
    · exact ha

/-- When `R` holds the clamped and rooted row minima and `C` the partial column minima, the composition equals
    `minFirst`. -/
theorem hostTail_eq (x y : FVec Ideal SPts .f32) (R : FVec Ideal S8192x1 .f32) (C : FVec Ideal S64x8192 .f32)
    (hR : ∀ n : Fin 8192, R (ix2 n 0) = clampSqrt (minOver fun m => sqd x y n m))
    (hC : ∀ (i r : Fin 8) (m : Fin 8192), C (ix2 (groupRow i r) m) = if r.val = 0 then tileColMin x y i m else wInf) :
    hostTail R C = fun _ => minFirst x y := by
  funext j
  rw [hostTail_apply]
  unfold minFirst
  simp only [hR, colMin_eq x y C hC]

end Cert.Hausdorff

end
-- ==== Proof.KernelRun.lean ====
/-
  The kernel's program, read whole: the grid leaves the column of row distances and the array of partial column
  minima; the host operations after it reduce them to the loss with the minima taken over squared distances.
-/
import proofs.«100550_j18872086299275_2_alg».proof.Proof.GridRun
import proofs.«100550_j18872086299275_2_alg».proof.Proof.TailRead
import Idealize.ShloMosaic.Lib.StableHlo.Run
import Idealize.ShloMosaic.Lib.Pipeline.FrameSuffix

set_option maxRecDepth 16384

noncomputable section

namespace Cert.Hausdorff

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The host operations after the grid, applied to the two arrays the grid leaves, give the loss with the minima
    taken over squared distances. -/
theorem tail_value (c : Dev nD) :
    Pipeline.afterTail₀ cfgs (dats m) 0 (V0 m) [hostOps1] c main_v11 = fun _ => minFirst (setX m c) (setY m c) := by
  have hR : Pipeline.withArrays (cfgs 0).spec c (V0 m c) (fun w => (dats m 0 c).arrAt w (cfgs 0).N) (Proc.devRef .tc main_v0_0)
      = rowsArr (setX m c) (setY m c) :=
    (Pipeline.withArrays_arr spec0 launch0.win.arr_inj c _ _ 2).trans (final_rows m c)
  have hC : Pipeline.withArrays (cfgs 0).spec c (V0 m c) (fun w => (dats m 0 c).arrAt w (cfgs 0).N) (Proc.devRef .tc main_v0_1)
      = colsArr (setX m c) (setY m c) :=
    (Pipeline.withArrays_arr spec0 launch0.win.arr_inj c _ _ 3).trans (final_cols m c)
  refine Eq.trans (?_ : _ = hostTail (rowsArr (setX m c) (setY m c)) (colsArr (setX m c) (setY m c)))
    (hostTail_eq _ _ _ _ (rowsArr_apply _ _) (colsArr_apply _ _))
  rw [← hR, ← hC]
  unfold Pipeline.afterTail₀
  show StableHlo.after hostOps1 _ (Proc.devRef .tc main_v11) = _
  after_results
  rfl

/-- The kernel's program at the ideal values: every weakly fair execution ends with the result at that loss of the
    two argument arrays, which end unchanged. -/
theorem run : θ_run defs (onTc (τ := τ) (main (F := Ideal))) ⟨m, fun _ => 0, ρ⟩ fun r => ∀ c : Dev nD,
      r.2.mem ((c.tc : Thread nD τ).loc main_v11)
        = (fun _ => minFirst (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Hausdorff

end
-- ==== Proof.RefSide.lean ====
import proofs.«100550_j18872086299275_2_alg».proof.Proof.Gen.ReferenceIdeal.Run
import proofs.«100550_j18872086299275_2_alg».proof.Proof.Gen.ReferenceIdeal.Read
import proofs.«100550_j18872086299275_2_alg».proof.Proof.Spec

/-
  The reference program's result, read at the extended reals, is the loss `distFirst` of the specification:
  every stage is read at an index, the two minimum-reduces as minima from +inf over one axis of the distance
  matrix, the two total sums as sums over the 8192 row (column) minima.
-/

noncomputable section

namespace Cert.Hausdorff

open Idealize.ShloMosaic Idealize.ShloMosaic.ValueIdx
open Cert.ReferenceIdeal Cert.ReferenceIdeal.Gen Cert.ReferenceIdeal.Read

/-- The first set's squared norms: stage 1 at row `n`. -/
theorem ref_sqNorm0 (x0 : FVec Ideal SPts .f32) (n : Fin 8192) :
    val_main_v1 (F := Ideal) x0 (ix1 n) = sqNorm x0 n := by
  rw [val_main_v1_apply, val_main_cst_apply, Ideal.ofBits_def, Ideal.ofBits_zero_f32, zero_add]
  unfold sqNorm
  refine Finset.sum_congr rfl fun k _ => ?_
  rw [val_main_v0_apply, Ideal.mulf_def]
  have e : idx_main_v1 (ix1 n) k = ix2 n k :=
    funext fun a => Fin.ext (by match a with | ⟨0, _⟩ => rfl | ⟨1, _⟩ => rfl)
  rw [e]

/-- The second set's squared norms: stage 3 at row `m`. -/
theorem ref_sqNorm1 (x1 : FVec Ideal SPts .f32) (m : Fin 8192) :
    val_main_v3 (F := Ideal) x1 (ix1 m) = sqNorm x1 m := by
  rw [val_main_v3_apply, val_main_cst_0_apply, Ideal.ofBits_def, Ideal.ofBits_zero_f32, zero_add]
  unfold sqNorm
  refine Finset.sum_congr rfl fun k _ => ?_
  rw [val_main_v2_apply, Ideal.mulf_def]
  have e : idx_main_v3 (ix1 m) k = ix2 m k :=
    funext fun a => Fin.ext (by match a with | ⟨0, _⟩ => rfl | ⟨1, _⟩ => rfl)
  rw [e]

/-- The inner products: stage 4 at entry `(n, m)`. -/
theorem ref_inner (x0 x1 : FVec Ideal SPts .f32) (n m : Fin 8192) :
    val_main_v4 (F := Ideal) x0 x1 (ix2 n m) = inner x0 x1 n m := by
  rw [val_main_v4_apply]
  unfold inner
  refine Finset.sum_congr rfl fun k _ => ?_
  have el : lidx_main_v4 (ix2 n m) k = ix2 n k :=
    funext fun a => Fin.ext (by match a with | ⟨0, _⟩ => rfl | ⟨1, _⟩ => rfl)
  have er : ridx_main_v4 (ix2 n m) k = ix2 m k :=
    funext fun a => Fin.ext (by match a with | ⟨0, _⟩ => rfl | ⟨1, _⟩ => rfl)
  rw [el, er]

/-- The distance matrix: stage 15 at entry `(n, m)` is the clamped root of the squared distance. -/
theorem ref_dist (x0 x1 : FVec Ideal SPts .f32) (n m : Fin 8192) :
    val_main_v15 (F := Ideal) x0 x1 (ix2 n m) = clampSqrt (sqd x0 x1 n m) := by
  rw [val_main_v15_apply, val_main_v14_apply, val_main_v12_apply, val_main_v9_apply, val_main_v11_apply,
    val_main_v13_apply, val_main_cst_2_apply, val_main_v10_apply, val_main_cst_1_apply,
    val_main_v7_apply, val_main_v5_apply, val_main_v8_apply, val_main_v6_apply]
  have e0 : idx_main_v5 (idx_main_v7 (ix2 n m)) = ix1 n :=
    funext fun a => Fin.ext (by match a with | ⟨0, _⟩ => rfl)
  have e1 : idx_main_v6 (idx_main_v8 (ix2 n m)) = ix1 m :=
    funext fun a => Fin.ext (by match a with | ⟨0, _⟩ => rfl)
  rw [e0, e1, ref_sqNorm0, ref_sqNorm1, ref_inner]
  simp only [Ideal.hostUnary_sqrt_def, Ideal.maximumf_def, Ideal.subf_def, Ideal.addf_def, Ideal.mulf_def,
    Ideal.ofBits_def, Ideal.ofBits_zero_f32]
  rfl

/-- The row minima: stage 16 at row `n` is the minimum over `m` of the distances, from +inf. -/
theorem ref_rowMin (x0 x1 : FVec Ideal SPts .f32) (n : Fin 8192) :
    val_main_v16 (F := Ideal) x0 x1 (ix1 n) = minOver fun m => clampSqrt (sqd x0 x1 n m) := by
  unfold val_main_v16
  refine (Host.reduce_eq_fold_single (FloatOps.minimumf (F := Ideal) (φ := .f32)) _ _
    reducesTo_S8192x8192_S8192_d1 (by decide) h_S_ (ix1 n)).trans ?_
  unfold minOver
  show (Finset.univ : Finset (Fin 8192)).fold min wInf _ = _
  refine Finset.fold_congr fun m _ => ?_
  have e : (Shape.Reduces.lift (s := S8192x8192) (a := 1) (t := S8192) (by decide) (ix1 n) m) = ix2 n m :=
    funext fun a => Fin.ext (by match a with | ⟨0, _⟩ => rfl | ⟨1, _⟩ => rfl)
  exact (congrArg (val_main_v15 (F := Ideal) x0 x1) e).trans (ref_dist x0 x1 n m)

/-- The column minima: stage 18 at column `m` is the minimum over `n` of the distances, from +inf. -/
theorem ref_colMin (x0 x1 : FVec Ideal SPts .f32) (m : Fin 8192) :
    val_main_v18 (F := Ideal) x0 x1 (ix1 m) = minOver fun n => clampSqrt (sqd x0 x1 n m) := by
  unfold val_main_v18
  refine (Host.reduce_eq_fold_single (FloatOps.minimumf (F := Ideal) (φ := .f32)) _ _
    reducesTo_S8192x8192_S8192_d0 (by decide) h_S_ (ix1 m)).trans ?_
  unfold minOver
  show (Finset.univ : Finset (Fin 8192)).fold min wInf _ = _
  refine Finset.fold_congr fun n _ => ?_
  have e : (Shape.Reduces.lift (s := S8192x8192) (a := 0) (t := S8192) (by decide) (ix1 m) n) = ix2 n m :=
    funext fun a => Fin.ext (by match a with | ⟨0, _⟩ => rfl | ⟨1, _⟩ => rfl)
  exact (congrArg (val_main_v15 (F := Ideal) x0 x1) e).trans (ref_dist x0 x1 n m)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) : ∑ i, f i = ∑ a : Fin n, f (ix1 a) :=
  (Equiv.sum_comp (idxEquiv1 (n := n)).symm f).symm

/-- The reference's result is the loss with every distance rooted first. -/
theorem reference_eq (x0 x1 : FVec Ideal SPts .f32) :
    Cert.ReferenceIdeal.Read.val_main_v21 (F := Ideal) x0 x1 = fun _ => distFirst x0 x1 := by
  funext i
  rw [val_main_v21_apply, val_main_v20_apply, val_main_v17_apply, val_main_v19_apply, val_main_cst_7_apply,
    val_main_cst_4_apply, val_main_cst_6_apply, sum_idx1, sum_idx1]
  simp only [ref_rowMin, ref_colMin, Ideal.mulf_def, Ideal.addf_def, Ideal.ofBits_def, Ideal.ofBits_zero_f32]
  rfl

end Cert.Hausdorff

end
-- ==== Proof.lean ====
/-
  The averaged Hausdorff distance of two sets of 8192 points in 128 dimensions: the kernel against its jnp reference,
  on the extended reals.

  Both programs take the squared distances by expansion, (|x_n|^2 + |y_m|^2) - 2 <x_n, y_m>, the norms as sums of
  squares and the inner products as one matrix product (at the ideal values a narrowing of the operands' format is
  the identity).  The reference clamps every squared distance at 0, takes its square root, and then the row minima
  and the column minima of the 8192 x 8192 matrix of distances, sums each family, adds the sums and halves.  The
  kernel walks the matrix in 8 x 8 tiles of 1024 x 1024: along a grid row it keeps the running minimum of each row's
  SQUARED distances and clamps and roots it after the last tile; for the columns every tile writes its own column
  minima of squared distances, which the host then reduces over the 8 tiles, clamps and roots.  The two agree
  because a -> sqrt (max a 0) is monotone and fixes +inf, so it commutes with a minimum taken from +inf, and a
  minimum over 8192 points is the minimum over the tiles of the per-tile minima.  No finiteness of the inputs is
  used: the minima are compared through their lower bounds, which hold on all extended reals.

  The three frames are the generated ones (the reference's is its generated run with the result dropped); the ideal
  pass rewrote nothing, so `preserves` is trivial.
-/
import proofs.«100550_j18872086299275_2_alg».proof.Defs
import proofs.«100550_j18872086299275_2_alg».proof.Proof.Gen.Kernel
import proofs.«100550_j18872086299275_2_alg».proof.Proof.Gen.Kernel.Skeleton
import proofs.«100550_j18872086299275_2_alg».proof.Proof.Gen.Kernel.Launch
import proofs.«100550_j18872086299275_2_alg».proof.Proof.Gen.Kernel.Points
import proofs.«100550_j18872086299275_2_alg».proof.Proof.Gen.Kernel.Frame
import proofs.«100550_j18872086299275_2_alg».proof.Proof.Gen.KernelIdeal
import proofs.«100550_j18872086299275_2_alg».proof.Proof.Gen.KernelIdeal.Skeleton
import proofs.«100550_j18872086299275_2_alg».proof.Proof.Gen.KernelIdeal.Launch
import proofs.«100550_j18872086299275_2_alg».proof.Proof.Gen.KernelIdeal.Points
import proofs.«100550_j18872086299275_2_alg».proof.Proof.Gen.KernelIdeal.Frame
import proofs.«100550_j18872086299275_2_alg».proof.Proof.Gen.ReferenceIdeal
import proofs.«100550_j18872086299275_2_alg».proof.Proof.Gen.ReferenceIdeal.Run
import proofs.«100550_j18872086299275_2_alg».proof.Proof.Gen.ReferenceIdeal.Read
import proofs.«100550_j18872086299275_2_alg».proof.Proof.Gen.Pre_finite_inputs
import proofs.«100550_j18872086299275_2_alg».proof.Proof.KernelRun
import proofs.«100550_j18872086299275_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's program ends at the loss with the minima taken over squared distances, the reference's at the loss
    with the minima taken over distances, of arguments that agree: one extended real. -/
theorem algebraic : Cert.algebraic_KernelIdeal_ReferenceIdeal := by
  intro m ρ m' ρ' _ hagree
  refine ⟨fun c => fun _ => Cert.Hausdorff.minFirst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Hausdorff.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _).trans ((Cert.Hausdorff.reference_eq _ _).trans ?_)
  rw [(hagree c).1, (hagree c).2]
  exact funext fun _ => (Cert.Hausdorff.minFirst_eq_distFirst _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
